-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x42x3 : Shape := ⟨3, ![64, 42, 3]⟩
abbrev S64x16384x3 : Shape := ⟨3, ![64, 16384, 3]⟩
abbrev S64x42 : Shape := ⟨2, ![64, 42]⟩
abbrev S_ : Shape := ⟨0, ![]⟩

class Facts : Prop where
  bcast_S_S64x42x3 : S_.BroadcastsInDim S64x42x3 (![] : Fin 0 → Fin S64x42x3.rank)
  reducesTo_S64x42x3_S_d0_1_2 : S64x42x3.ReducesTo [0, 1, 2] S_
  h_S_ : 0 < S_.numel
  bcast_S_S64x16384x3 : S_.BroadcastsInDim S64x16384x3 (![] : Fin 0 → Fin S64x16384x3.rank)
  reducesTo_S64x16384x3_S_d0_1_2 : S64x16384x3.ReducesTo [0, 1, 2] S_
  bcast_S_S64x42 : S_.BroadcastsInDim S64x42 (![] : Fin 0 → Fin S64x42.rank)
  reducesTo_S64x42_S_d0_1 : S64x42.ReducesTo [0, 1] S_

variable [Facts]

def fn {F : FTy → Type} [FloatOps F] (main_arg0 : FVec F S64x42x3 .f32) (main_arg1 : FVec F S64x16384x3 .f32) (main_arg2 : FVec F S64x42 .f32) : IVec S_ 1 :=
  let main_v0 : FVec F S64x42x3 .f32 := Host.absf main_arg0
  let main_cst : FVec F S_ .f32 := constant S_ .f32 0x7F800000#32
  let main_v1 : FVec F S64x42x3 .f32 := broadcastInDim S64x42x3 ![] bcast_S_S64x42x3 main_cst
  let main_v2 : IVec S64x42x3 1 := cmpf .olt main_v0 main_v1
  let main_c : IVec S_ 1 := constantI S_ 1 1#1
  let main_v3 : IVec S_ 1 := (fun x v => Host.reduce IntOp.andi x v reducesTo_S64x42x3_S_d0_1_2 h_S_) main_v2 main_c
  let main_v4 : FVec F S64x16384x3 .f32 := Host.absf main_arg1
  let main_cst_0 : FVec F S_ .f32 := constant S_ .f32 0x7F800000#32
  let main_v5 : FVec F S64x16384x3 .f32 := broadcastInDim S64x16384x3 ![] bcast_S_S64x16384x3 main_cst_0
  let main_v6 : IVec S64x16384x3 1 := cmpf .olt main_v4 main_v5
  let main_c_1 : IVec S_ 1 := constantI S_ 1 1#1
  let main_v7 : IVec S_ 1 := (fun x v => Host.reduce IntOp.andi x v reducesTo_S64x16384x3_S_d0_1_2 h_S_) main_v6 main_c_1
  let main_v8 : IVec S_ 1 := andi main_v3 main_v7
  let main_v9 : FVec F S64x42 .f32 := Host.absf main_arg2
  let main_cst_2 : FVec F S_ .f32 := constant S_ .f32 0x7F800000#32
  let main_v10 : FVec F S64x42 .f32 := broadcastInDim S64x42 ![] bcast_S_S64x42 main_cst_2
  let main_v11 : IVec S64x42 1 := cmpf .olt main_v9 main_v10
  let main_c_3 : IVec S_ 1 := constantI S_ 1 1#1
  let main_v12 : IVec S_ 1 := (fun x v => Host.reduce IntOp.andi x v reducesTo_S64x42_S_d0_1 h_S_) main_v11 main_c_3
  let main_v13 : IVec S_ 1 := andi main_v8 main_v12
  main_v13
-- ==== Kernel.lean ====
abbrev S64x42x3 : Shape := ⟨3, ![64, 42, 3]⟩
abbrev S64x16384x3 : Shape := ⟨3, ![64, 16384, 3]⟩
abbrev S64x42 : Shape := ⟨2, ![64, 42]⟩
abbrev S64x3x16384 : Shape := ⟨3, ![64, 3, 16384]⟩
abbrev S8x42x3 : Shape := ⟨3, ![8, 42, 3]⟩
abbrev S8x3x16384 : Shape := ⟨3, ![8, 3, 16384]⟩
abbrev S8x42 : Shape := ⟨2, ![8, 42]⟩
abbrev S8x42x1 : Shape := ⟨3, ![8, 42, 1]⟩
abbrev S8x42x2048 : Shape := ⟨3, ![8, 42, 2048]⟩
abbrev S8x1x2048 : Shape := ⟨3, ![8, 1, 2048]⟩
abbrev S8x2048 : Shape := ⟨2, ![8, 2048]⟩
abbrev S_ : Shape := ⟨0, ![]⟩

abbrev nBuf : Space → Nat
  | .hbm => 11
  | .vmem => 6
  | .smem => 0
  | _ => 0

abbrev bufTy : (tb : Table) → Fin (tcTables nBuf tb) → BufTy
  | .hbm, ⟨0, _⟩ => ⟨S64x42x3, .f32⟩
  | .hbm, ⟨1, _⟩ => ⟨S64x16384x3, .f32⟩
  | .hbm, ⟨2, _⟩ => ⟨S64x42, .f32⟩
  | .hbm, ⟨3, _⟩ => ⟨S64x3x16384, .f32⟩
  | .hbm, ⟨4, _⟩ => ⟨S64x42, .f32⟩
  | .hbm, ⟨5, _⟩ => ⟨S64x42, .f32⟩
  | .hbm, ⟨6, _⟩ => ⟨S64x42, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S8x42x3, .f32⟩
  | .local _ .vmem, ⟨1, _⟩ => ⟨S8x42x3, .f32⟩
  | .local _ .vmem, ⟨2, _⟩ => ⟨S8x3x16384, .f32⟩
  | .local _ .vmem, ⟨3, _⟩ => ⟨S8x3x16384, .f32⟩
  | .local _ .vmem, ⟨4, _⟩ => ⟨S8x42, .f32⟩
  | .local _ .vmem, ⟨5, _⟩ => ⟨S8x42, .f32⟩
  | _, _ => ⟨S64x42x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def k0_mult1 : BitVec 32 :=
  let c0_i32 : BitVec 32 := 0#32
  let c2048_i32 : BitVec 32 := 2048#32
  let v7 : BitVec 32 := Scalar.muli c0_i32 c2048_i32
  v7
def k0_off1 (c0_i32 : BitVec 32) : Fin 3 → Nat :=
  let c0_7 : Index := 0#32
  let c0_8 : Index := 0#32
  let c2048_i32 : BitVec 32 := 2048#32
  let v7 : BitVec 32 := Scalar.muli c0_i32 c2048_i32
  let v8 : BitVec 32 := v7
  let v10 : Index := Scalar.indexCast v8
  ![0, 0, v10.toNat]
def k0_off2 (c0_i32 : BitVec 32) : Fin 3 → Nat :=
  let c0_9 : Index := 0#32
  let c1_10 : Index := 1#32
  let c2048_i32 : BitVec 32 := 2048#32
  let v7 : BitVec 32 := Scalar.muli c0_i32 c2048_i32
  let v8 : BitVec 32 := v7
  let v20 : Index := Scalar.indexCast v8
  ![0, 1, v20.toNat]
def k0_off3 (c0_i32 : BitVec 32) : Fin 3 → Nat :=
  let c0_11 : Index := 0#32
  let c2_12 : Index := 2#32
  let c2048_i32 : BitVec 32 := 2048#32
  let v7 : BitVec 32 := Scalar.muli c0_i32 c2048_i32
  let v8 : BitVec 32 := v7
  let v30 : Index := Scalar.indexCast v8
  ![0, 2, v30.toNat]
def k0_mult2 : BitVec 32 :=
  let c1_i32 : BitVec 32 := 1#32
  let c2048_i32_14 : BitVec 32 := 2048#32
  let v43 : BitVec 32 := Scalar.muli c1_i32 c2048_i32_14
  v43
def k0_mult3 : BitVec 32 :=
  let c2_i32 : BitVec 32 := 2#32
  let c2048_i32_23 : BitVec 32 := 2048#32
  let v79 : BitVec 32 := Scalar.muli c2_i32 c2048_i32_23
  v79
def k0_mult4 : BitVec 32 :=
  let c3_i32 : BitVec 32 := 3#32
  let c2048_i32_32 : BitVec 32 := 2048#32
  let v115 : BitVec 32 := Scalar.muli c3_i32 c2048_i32_32
  v115
def k0_mult5 : BitVec 32 :=
  let c4_i32 : BitVec 32 := 4#32
  let c2048_i32_41 : BitVec 32 := 2048#32
  let v151 : BitVec 32 := Scalar.muli c4_i32 c2048_i32_41
  v151
def k0_mult6 : BitVec 32 :=
  let c5_i32 : BitVec 32 := 5#32
  let c2048_i32_50 : BitVec 32 := 2048#32
  let v187 : BitVec 32 := Scalar.muli c5_i32 c2048_i32_50
  v187
def k0_mult7 : BitVec 32 :=
  let c6_i32 : BitVec 32 := 6#32
  let c2048_i32_59 : BitVec 32 := 2048#32
  let v223 : BitVec 32 := Scalar.muli c6_i32 c2048_i32_59
  v223
def k0_mult8 : BitVec 32 :=
  let c7_i32 : BitVec 32 := 7#32
  let c2048_i32_68 : BitVec 32 := 2048#32
  let v259 : BitVec 32 := Scalar.muli c7_i32 c2048_i32_68
  v259
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x42x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x3x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x42 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S64x16384x3_S64x3x16384_0_2_1 : S64x16384x3.Transposes [0, 2, 1] S64x3x16384
  inb_S8x42x3_S8x42x1_0_0_0 : ∀ a, (![0, 0, 0] : Fin 3 → Nat) a + S8x42x1.size a ≤ S8x42x3.size a
  h_S8x42x1 : 0 < S8x42x1.numel
  shapeCasts_S8x42x1_S8x42 : S8x42x1.ShapeCasts S8x42
  inb_S8x42x3_S8x42x1_0_0_1 : ∀ a, (![0, 0, 1] : Fin 3 → Nat) a + S8x42x1.size a ≤ S8x42x3.size a
  inb_S8x42x3_S8x42x1_0_0_2 : ∀ a, (![0, 0, 2] : Fin 3 → Nat) a + S8x42x1.size a ≤ S8x42x3.size a
  h_S8x1x2048 : 0 < S8x1x2048.numel
  shapeCasts_S8x1x2048_S8x2048 : S8x1x2048.ShapeCasts S8x2048
  shapeCasts_S8x42_S8x42x1 : S8x42.ShapeCasts S8x42x1
  shapeCasts_S8x2048_S8x1x2048 : S8x2048.ShapeCasts S8x1x2048
  broadcasts_S8x42x1_S8x42x2048 : S8x42x1.Broadcasts S8x42x2048
  broadcasts_S8x1x2048_S8x42x2048 : S8x1x2048.Broadcasts S8x42x2048
  reduces_S8x42x2048_S8x42 : S8x42x2048.Reduces [2] S8x42
  inb_S8x42_S8x42_0_0 : ∀ a, (![0, 0] : Fin 2 → Nat) a + S8x42.size a ≤ S8x42.size a
  h_S8x42 : 0 < S8x42.numel
  reducesTo_S64x42_S_d0_1 : S64x42.ReducesTo [0, 1] S_
  h_S_ : 0 < S_.numel
  hrank0 : 0 < grid0.rank
  k0_mult1_dvd : 2048 ∣ k0_mult1.toNat
  k0_off1_inb : ∀ (r : Fin 8), ∀ a, (k0_off1 (BitVec.ofNat 32 r.val)) a + S8x1x2048.size a ≤ S8x3x16384.size a
  k0_off2_inb : ∀ (r : Fin 8), ∀ a, (k0_off2 (BitVec.ofNat 32 r.val)) a + S8x1x2048.size a ≤ S8x3x16384.size a
  k0_off3_inb : ∀ (r : Fin 8), ∀ a, (k0_off3 (BitVec.ofNat 32 r.val)) a + S8x1x2048.size a ≤ S8x3x16384.size a
  k0_mult2_dvd : 2048 ∣ k0_mult2.toNat
  k0_mult3_dvd : 2048 ∣ k0_mult3.toNat
  k0_mult4_dvd : 2048 ∣ k0_mult4.toNat
  k0_mult5_dvd : 2048 ∣ k0_mult5.toNat
  k0_mult6_dvd : 2048 ∣ k0_mult6.toNat
  k0_mult7_dvd : 2048 ∣ k0_mult7.toNat
  k0_mult8_dvd : 2048 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x42x3.size a ≤ S64x42x3.size a
  hwx0_0 : ∀ i : grid0.Coords, EltTy.bits .f32 = 32 ∨ (Rect.block (s := S64x42x3) S8x42x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x3x16384.size a ≤ S64x3x16384.size a
  hwx0_1 : ∀ i : grid0.Coords, EltTy.bits .f32 = 32 ∨ (Rect.block (s := S64x3x16384) S8x3x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x42.size a ≤ S64x42.size a
  hwx0_2 : ∀ i : grid0.Coords, EltTy.bits .f32 = 32 ∨ (Rect.block (s := S64x42) S8x42.size (cc0_transform_2 i) (hinb0_2 i)).WholeWords (EltTy.packing .f32)

variable [Facts₀]

abbrev win0_0 : Pipeline.Window sig grid0 :=
  Pipeline.Window.ofSpec (Memref.whole main_arg0) S8x42x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x3x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x42.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x42x3 : Shape := ⟨3, ![64, 42, 3]⟩
abbrev S64x16384x3 : Shape := ⟨3, ![64, 16384, 3]⟩
abbrev S64x42 : Shape := ⟨2, ![64, 42]⟩
abbrev S_ : Shape := ⟨0, ![]⟩
abbrev S64x16384 : Shape := ⟨2, ![64, 16384]⟩
abbrev S64x42x16384 : Shape := ⟨3, ![64, 42, 16384]⟩
abbrev S64x42x1 : Shape := ⟨3, ![64, 42, 1]⟩
abbrev S64x1x16384 : Shape := ⟨3, ![64, 1, 16384]⟩

abbrev nBuf : Space → Nat
  | .hbm => 31
  | .vmem => 0
  | .smem => 0
  | _ => 0

abbrev bufTy : (tb : Table) → Fin (tcTables nBuf tb) → BufTy
  | .hbm, ⟨0, _⟩ => ⟨S64x42x3, .f32⟩
  | .hbm, ⟨1, _⟩ => ⟨S64x16384x3, .f32⟩
  | .hbm, ⟨2, _⟩ => ⟨S64x42, .f32⟩
  | .hbm, ⟨3, _⟩ => ⟨S64x42x3, .f32⟩
  | .hbm, ⟨4, _⟩ => ⟨S_, .f32⟩
  | .hbm, ⟨5, _⟩ => ⟨S64x42, .f32⟩
  | .hbm, ⟨6, _⟩ => ⟨S64x16384x3, .f32⟩
  | .hbm, ⟨7, _⟩ => ⟨S_, .f32⟩
  | .hbm, ⟨8, _⟩ => ⟨S64x16384, .f32⟩
  | .hbm, ⟨9, _⟩ => ⟨S64x42x16384, .f32⟩
  | .hbm, ⟨10, _⟩ => ⟨S64x42x1, .f32⟩
  | .hbm, ⟨11, _⟩ => ⟨S64x1x16384, .f32⟩
  | .hbm, ⟨12, _⟩ => ⟨S64x42x16384, .f32⟩
  | .hbm, ⟨13, _⟩ => ⟨S64x42x16384, .f32⟩
  | .hbm, ⟨14, _⟩ => ⟨S64x42x16384, .f32⟩
  | .hbm, ⟨15, _⟩ => ⟨S_, .f32⟩
  | .hbm, ⟨16, _⟩ => ⟨S64x42x16384, .f32⟩
  | .hbm, ⟨17, _⟩ => ⟨S64x42x16384, .f32⟩
  | .hbm, ⟨18, _⟩ => ⟨S64x42x16384, .f32⟩
  | .hbm, ⟨19, _⟩ => ⟨S_, .f32⟩
  | .hbm, ⟨20, _⟩ => ⟨S64x42x16384, .f32⟩
  | .hbm, ⟨21, _⟩ => ⟨S64x42x16384, .f32⟩
  | .hbm, ⟨22, _⟩ => ⟨S64x42x16384, .f32⟩
  | .hbm, ⟨23, _⟩ => ⟨S_, .f32⟩
  | .hbm, ⟨24, _⟩ => ⟨S64x42, .f32⟩
  | .hbm, ⟨25, _⟩ => ⟨S64x42, .f32⟩
  | .hbm, ⟨26, _⟩ => ⟨S64x42, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S64x42x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  reducesTo_S64x42x3_S64x42_d2 : S64x42x3.ReducesTo [2] S64x42
  h_S_ : 0 < S_.numel
  reducesTo_S64x16384x3_S64x16384_d2 : S64x16384x3.ReducesTo [2] S64x16384
  bcast_S64x42_S64x42x1_0_1 : S64x42.BroadcastsInDim S64x42x1 (![0, 1] : Fin 2 → Fin S64x42x1.rank)
  bcast_S64x16384_S64x1x16384_0_2 : S64x16384.BroadcastsInDim S64x1x16384 (![0, 2] : Fin 2 → Fin S64x1x16384.rank)
  bcast_S64x42x1_S64x42x16384_0_1_2 : S64x42x1.BroadcastsInDim S64x42x16384 (![0, 1, 2] : Fin 3 → Fin S64x42x16384.rank)
  bcast_S64x1x16384_S64x42x16384_0_1_2 : S64x1x16384.BroadcastsInDim S64x42x16384 (![0, 1, 2] : Fin 3 → Fin S64x42x16384.rank)
  bcast_S_S64x42x16384 : S_.BroadcastsInDim S64x42x16384 (![] : Fin 0 → Fin S64x42x16384.rank)
  reducesTo_S64x42x16384_S64x42_d2 : S64x42x16384.ReducesTo [2] S64x42
  reducesTo_S64x42_S_d0_1 : S64x42.ReducesTo [0, 1] S_
  dot_S64x42x3_S64x16384x3_S64x42x16384_2_2_1_1_0_0_wf : DotDims.WF S64x42x3 S64x16384x3 S64x42x16384 [2] [2] [1] [1] [0] [0]

variable [Facts₀]

def dot_S64x42x3_S64x16384x3_S64x42x16384_2_2_1_1_0_0 : DotDims S64x42x3 S64x16384x3 S64x42x16384 where
  lhsContracting := [2]
  rhsContracting := [2]
  lhsNonContracting := [1]
  rhsNonContracting := [1]
  lhsBatch := [0]
  rhsBatch := [0]
  wf := dot_S64x42x3_S64x16384x3_S64x42x16384_2_2_1_1_0_0_wf

class Facts : Prop extends Facts₀ where

variable [Facts]
-- ==== Proof.LibRank3UnitAxes.lean ====
/-
  Rank-3 arrays with a unit axis in the middle or at the end, read at an index given by coordinates; any extents.

  * a shape cast that drops or adds a TRAILING unit axis ([a,b,1] ↔ [a,b]) or a MIDDLE unit axis ([a,1,n] ↔ [a,n])
    keeps the row-major position, so it reads the operand at the same coordinates with 0 on the unit axis;
  * a broadcast of [a,b,1] or of [a,1,n] to [a,b,n] repeats the operand along the unit axis;
  * a load through a unit-stride rectangle reads the contents at offset + coordinate on every axis;
  * at the ideal values, a minimum reduction over the LAST axis of an [a,b,n] array — a vector unit's
    `multi_reduction <minimumf>` or the host's `reduce` with a minimum body — is, at (i, j), the fold of `min` from
    the initial value over the n entries (i, j, ·).
-/
import Idealize.ShloMosaic.Lib.Pipeline.Value
import Idealize.ShloMosaic.Lib.ValueIdx
import Idealize.ShloMosaic.PureOps.Ideal.Laws

noncomputable section

namespace Cert.Rank3UnitAxes

open Idealize.ShloMosaic Idealize.ShloMosaic.ValueIdx

variable {α : Type}

/-- [a,b,1] cast to [a,b] reads, at (i, j), the operand at (i, j, 0). -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- [a,b] cast to [a,b,1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- [a,1,n] cast to [a,n] reads, at (i, l), the operand at (i, 0, l). -/
theorem shapeCast_a1n_an_apply {a n : ℕ} (x : (⟨3, ![a, 1, n]⟩ : Shape).Idx → α)
    (h : (⟨3, ![a, 1, n]⟩ : Shape).ShapeCasts ⟨2, ![a, n]⟩) (i : Fin a) (l : Fin n) :
    shapeCast ⟨2, ![a, n]⟩ x h (ix2 i l) = x (ix3 i (0 : Fin 1) l) :=
  shapeCast_apply x h _ _ (by
    rw [Shape.rowMajor_val_three, Shape.rowMajor_val_two]
    show (i.val * 1 + 0) * n + l.val = i.val * n + l.val
    rw [Nat.mul_one, Nat.add_zero])

/-- [a,n] cast to [a,1,n] reads, at (i, u, l), the operand at (i, l). -/
theorem shapeCast_an_a1n_apply {a n : ℕ} (x : (⟨2, ![a, n]⟩ : Shape).Idx → α)
    (h : (⟨2, ![a, n]⟩ : Shape).ShapeCasts ⟨3, ![a, 1, n]⟩) (i : Fin a) (u : Fin 1) (l : Fin n) :
    shapeCast ⟨3, ![a, 1, n]⟩ x h (ix3 i u l) = x (ix2 i l) :=
  shapeCast_apply x h _ _ (by
    have hu : u.val = 0 := by omega
    rw [Shape.rowMajor_val_three, Shape.rowMajor_val_two]
    show i.val * n + l.val = (i.val * 1 + u.val) * n + l.val
    rw [hu, Nat.mul_one, Nat.add_zero])

/-- [a,b,1] broadcast to [a,b,n] reads, at (i, j, l), the operand at (i, j, 0). -/
theorem broadcastTo_ab1_abn_apply {a b n : ℕ} (x : (⟨3, ![a, b, 1]⟩ : Shape).Idx → α)
    (h : (⟨3, ![a, b, 1]⟩ : Shape).Broadcasts ⟨3, ![a, b, n]⟩) (i : Fin a) (j : Fin b) (l : Fin n) :
    broadcastTo ⟨3, ![a, b, n]⟩ x h (ix3 i j l) = x (ix3 i j (0 : Fin 1)) := by
  refine broadcastTo_apply x h (ix3 i j l) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- [a,1,n] broadcast to [a,b,n] reads, at (i, j, l), the operand at (i, 0, l). -/
theorem broadcastTo_a1n_abn_apply {a b n : ℕ} (x : (⟨3, ![a, 1, n]⟩ : Shape).Idx → α)
    (h : (⟨3, ![a, 1, n]⟩ : Shape).Broadcasts ⟨3, ![a, b, n]⟩) (i : Fin a) (j : Fin b) (l : Fin n) :
    broadcastTo ⟨3, ![a, b, n]⟩ x h (ix3 i j l) = x (ix3 i (0 : Fin 1) l) := by
  refine broadcastTo_apply x h (ix3 i j l) (ix3 i (0 : Fin 1) l) fun ax => ?_
  match ax with
  | ⟨0, _⟩ =>
    show i.val = if a = 1 then 0 else i.val
    split
    · have := i.isLt; omega
    · rfl
  | ⟨1, _⟩ => rfl
  | ⟨2, _⟩ =>
    show l.val = if n = 1 then 0 else l.val
    split
    · have := l.isLt; omega
    · rfl

/-- A load through a unit-stride rectangle reads the contents at offset + coordinate on every axis. -/
theorem ld_unit_apply {Val : EltTy → Type} {e : EltTy} {S : Shape} (X : S.Idx → Val e) (off : Fin S.rank → Nat) (size : Fin S.rank → Nat)
    (inb : ∀ ax, off ax + size ax ≤ S.size ax) (y : (Rect.unit (s := S) off size inb).shape.Idx) (k : S.Idx)
    (hk : ∀ ax, (k ax).val = off ax + (y ax).val) :
    View.ld X (Rect.unit (s := S) off size inb) y = X k := by
  show X ((Rect.unit (s := S) off size inb).emb y) = X k
  refine congrArg X (funext fun ax => Fin.ext ?_)
  rw [Rect.emb_apply, hk ax]
  show off ax + 1 * (y ax).val = _
  rw [Nat.one_mul]

/-- The index over (i, j) with l inserted on the last axis is (i, j, l). -/
theorem lift_last {a b n : ℕ} (h : (⟨3, ![a, b, n]⟩ : Shape).Reduces [2] ⟨2, ![a, b]⟩) (i : Fin a) (j : Fin b) (l : Fin n) :
    h.lift (ix2 i j) l = ix3 i j l :=
  funext fun ax => Fin.ext (by match ax with | ⟨0, _⟩ => rfl | ⟨1, _⟩ => rfl | ⟨2, _⟩ => rfl)

/-- At the ideal values a `multi_reduction <minimumf>` over the last axis of an [a,b,n] array is, at (i, j), the fold of
    `min` from the accumulator's value over the entries (i, j, ·). -/
theorem multiReduction_minimumf_last {a b n : ℕ} {φ : FTy} (src : FVec Ideal ⟨3, ![a, b, n]⟩ φ) (acc : BitVec φ.bits)
    (h : (⟨3, ![a, b, n]⟩ : Shape).Reduces [2] ⟨2, ![a, b]⟩) (hφ : FKind.Formats φ)
    (hacc : acc = FKind.minimumf.neutral φ hφ) (i : Fin a) (j : Fin b) :
    multiReduction .minimumf [2] ⟨2, ![a, b]⟩ src acc h hφ hacc (ix2 i j)
      = (Finset.univ : Finset (Fin n)).fold min (Ideal.ofBits φ acc) (fun l => src (ix3 i j l)) := by
  rw [multiReduction_minimumf_eq_fold]
  refine (h.fold_filter_drop_single _ _ src (ix2 i j)).trans ?_
  exact congrArg (fun f : Fin n → EReal => (Finset.univ : Finset (Fin n)).fold min (Ideal.ofBits φ acc) f)
    (funext fun l => congrArg src (lift_last h i j l))

/-- The host's `reduce` with a minimum body over the last axis of an [a,b,n] array, at the ideal values, likewise: the
    fold of `min` from the initial value over the entries (i, j, ·). -/
theorem hostReduce_minimumf_last {a b n : ℕ} {φ : FTy} {u : Shape} (x : FVec Ideal ⟨3, ![a, b, n]⟩ φ)
    (init : u.Idx → Ideal φ) (h' : (⟨3, ![a, b, n]⟩ : Shape).ReducesTo [2] ⟨2, ![a, b]⟩)
    (h : (⟨3, ![a, b, n]⟩ : Shape).Reduces [2] ⟨2, ![a, b]⟩) (hu : 0 < u.numel) (i : Fin a) (j : Fin b) :
    Host.reduce (FloatOps.minimumf (F := Ideal) (φ := φ)) x init h' hu (ix2 i j)
      = (Finset.univ : Finset (Fin n)).fold min (init (Shape.Idx.first hu)) (fun l => x (ix3 i j l)) := by
  refine (Host.reduce_eq_fold_single _ x init h' h hu (ix2 i j)).trans ?_
  exact congrArg (fun f : Fin n → EReal => (Finset.univ : Finset (Fin n)).fold min (init (Shape.Idx.first hu)) f)
    (funext fun l => congrArg x (lift_last h i j l))

end Cert.Rank3UnitAxes

end
-- ==== Proof.MinDistAlgebra.lean ====
/-
  The arithmetic of the nearest-point distance, on the extended reals.

  For a joint a = (a₀, a₁, a₂) and a point o = (o₀, o₁, o₂) with REAL coordinates, the squared distance
  D = (a₀ - o₀)² + (a₁ - o₁)² + (a₂ - o₂)² is written two ways: term by term from zero, and by the expansion
  |a|² + |o|² - 2⟨a, o⟩ clamped at zero. Both are the real number D (the expansion needs the coordinates real:
  distributivity fails at the infinities), D is non-negative, so the clamp does nothing.
  A minimum over 16384 points taken as eight minima of 2048 consecutive points each, folded from +∞, is the minimum
  over all of them; and the square root, being monotone with √(+∞) = +∞, passes through a minimum folded from +∞.
-/
import Idealize.ShloMosaic.PureOps.Ideal
import Idealize.ShloMosaic.PureOps.Ideal.Laws

noncomputable section

namespace Cert.MinDist

open Idealize.ShloMosaic

/-- The squared distance of two real triples. -/
def sqDist (a0 a1 a2 o0 o1 o2 : ℝ) : ℝ := (a0 - o0) * (a0 - o0) + (a1 - o1) * (a1 - o1) + (a2 - o2) * (a2 - o2)

theorem sqDist_nonneg (a0 a1 a2 o0 o1 o2 : ℝ) : 0 ≤ sqDist a0 a1 a2 o0 o1 o2 := by
  unfold sqDist
  have h0 := mul_self_nonneg (a0 - o0)
  have h1 := mul_self_nonneg (a1 - o1)
  have h2 := mul_self_nonneg (a2 - o2)
  linarith

/-- Term by term from zero: ((0 + (a₀-o₀)²) + (a₁-o₁)²) + (a₂-o₂)². -/
theorem termwise_eq (a0 a1 a2 o0 o1 o2 : ℝ) :
    (((0 : EReal) + ((a0 : EReal) - (o0 : EReal)) * ((a0 : EReal) - (o0 : EReal)))
        + ((a1 : EReal) - (o1 : EReal)) * ((a1 : EReal) - (o1 : EReal)))
        + ((a2 : EReal) - (o2 : EReal)) * ((a2 : EReal) - (o2 : EReal))
      = ((sqDist a0 a1 a2 o0 o1 o2 : ℝ) : EReal) := by
  rw [zero_add, ← EReal.coe_sub, ← EReal.coe_sub, ← EReal.coe_sub, ← EReal.coe_mul, ← EReal.coe_mul, ← EReal.coe_mul,
    ← EReal.coe_add, ← EReal.coe_add]
  rfl

/-- The expansion, clamped at zero: max ((0 + Σ aₖ²) + (0 + Σ oₖ²) - 2·Σ aₖoₖ) 0. -/
theorem expanded_eq (a0 a1 a2 o0 o1 o2 : ℝ) :
    max ((((0 : EReal) + ((a0 : EReal) * (a0 : EReal) + (a1 : EReal) * (a1 : EReal) + (a2 : EReal) * (a2 : EReal)))
          + ((0 : EReal) + ((o0 : EReal) * (o0 : EReal) + (o1 : EReal) * (o1 : EReal) + (o2 : EReal) * (o2 : EReal))))
        - ((2 : ℝ) : EReal) * ((a0 : EReal) * (o0 : EReal) + (a1 : EReal) * (o1 : EReal) + (a2 : EReal) * (o2 : EReal))) 0
      = ((sqDist a0 a1 a2 o0 o1 o2 : ℝ) : EReal) := by
  have e : (((0 : EReal) + ((a0 : EReal) * (a0 : EReal) + (a1 : EReal) * (a1 : EReal) + (a2 : EReal) * (a2 : EReal)))
          + ((0 : EReal) + ((o0 : EReal) * (o0 : EReal) + (o1 : EReal) * (o1 : EReal) + (o2 : EReal) * (o2 : EReal))))
        - ((2 : ℝ) : EReal) * ((a0 : EReal) * (o0 : EReal) + (a1 : EReal) * (o1 : EReal) + (a2 : EReal) * (o2 : EReal))
      = ((sqDist a0 a1 a2 o0 o1 o2 : ℝ) : EReal) := by
    simp only [zero_add, ← EReal.coe_mul, ← EReal.coe_add, ← EReal.coe_sub]
    refine congrArg _ ?_
    unfold sqDist
    ring
  rw [e]
  exact max_eq_left (EReal.coe_nonneg.2 (sqDist_nonneg ..))

/-- The ideal square root is monotone: a negative real and -∞ go to -∞, the least value. -/
theorem sqrt_mono : Monotone Ideal.sqrt := by
  intro x y hxy
  induction x using EReal.rec with
  | bot => simp
  | top =>
    rw [top_le_iff] at hxy; subst hxy; exact le_rfl
  | coe r =>
    induction y using EReal.rec with
    | bot => simp at hxy
    | top => simp
    | coe s =>
      have hrs : r ≤ s := EReal.coe_le_coe_iff.1 hxy
      rw [Ideal.sqrt_coe, Ideal.sqrt_coe]
      by_cases hr : r < 0
      · rw [if_pos hr]; exact bot_le
      · have hs : ¬ s < 0 := fun h => hr (lt_of_le_of_lt hrs h)
        rw [if_neg hr, if_neg hs]
        exact EReal.coe_le_coe_iff.2 (Real.sqrt_le_sqrt hrs)

/-- A monotone map that fixes +∞ passes through a minimum folded from +∞. -/
theorem map_fold_min {ι : Type} (g : EReal → EReal) (hg : Monotone g) (htop : g ⊤ = ⊤) (s : Finset ι) (f : ι → EReal) :
    g (s.fold min ⊤ f) = s.fold min ⊤ (fun i => g (f i)) := by
  classical
  induction s using Finset.induction_on with
  | empty => simpa using htop
  | insert a s ha ih =>
    rw [Finset.fold_insert ha, Finset.fold_insert ha, hg.map_min, ih]

/-- Eight minima of 2048 consecutive points each, folded from +∞ in order, are the minimum over all 16384 points. -/
theorem chunked_min (f : Fin 16384 → EReal) (M : Fin 8 → EReal)
    (hM : ∀ c : Fin 8, M c = (Finset.univ : Finset (Fin 2048)).fold min ⊤
      (fun l => f ⟨2048 * c.val + l.val, by have := c.isLt; have := l.isLt; omega⟩)) :
    min (min (min (min (min (min (min (min ⊤ (M 0)) (M 1)) (M 2)) (M 3)) (M 4)) (M 5)) (M 6)) (M 7)
      = (Finset.univ : Finset (Fin 16384)).fold min ⊤ f := by
  refine le_antisymm ?_ ?_
  · rw [Finset.le_fold_min]
    refine ⟨le_top, fun p _ => ?_⟩
    have hp := p.isLt
    have key : ∀ c : Fin 8, p.val / 2048 = c.val → M c ≤ f p := by
      intro c hc
      rw [hM c]
      have hl : p.val % 2048 < 2048 := Nat.mod_lt _ (by norm_num)
      refine (Finset.fold_min_le (c := f p)).2 (Or.inr ⟨⟨p.val % 2048, hl⟩, Finset.mem_univ _, ?_⟩)
      refine le_of_eq (congrArg f (Fin.ext ?_))
      show 2048 * c.val + p.val % 2048 = p.val
      rw [← hc]; omega
    have hc : p.val / 2048 < 8 := by omega
    -- the chain is below each of its entries
    have c0 := key 0; have c1 := key 1; have c2 := key 2; have c3 := key 3
    have c4 := key 4; have c5 := key 5; have c6 := key 6; have c7 := key 7
    have h8 : p.val / 2048 = 0 ∨ p.val / 2048 = 1 ∨ p.val / 2048 = 2 ∨ p.val / 2048 = 3 ∨ p.val / 2048 = 4
        ∨ p.val / 2048 = 5 ∨ p.val / 2048 = 6 ∨ p.val / 2048 = 7 := by omega
    rcases h8 with h | h | h | h | h | h | h | h
    · exact le_trans (by simp only [min_le_iff, le_refl, true_or, or_true]) (c0 h)
    · exact le_trans (by simp only [min_le_iff, le_refl, true_or, or_true]) (c1 h)
    · exact le_trans (by simp only [min_le_iff, le_refl, true_or, or_true]) (c2 h)
    · exact le_trans (by simp only [min_le_iff, le_refl, true_or, or_true]) (c3 h)
    · exact le_trans (by simp only [min_le_iff, le_refl, true_or, or_true]) (c4 h)
    · exact le_trans (by simp only [min_le_iff, le_refl, true_or, or_true]) (c5 h)
    · exact le_trans (by simp only [min_le_iff, le_refl, true_or, or_true]) (c6 h)
    · exact le_trans (by simp only [min_le_iff, le_refl, true_or, or_true]) (c7 h)
  · have hle : ∀ c : Fin 8, (Finset.univ : Finset (Fin 16384)).fold min ⊤ f ≤ M c := by
      intro c
      rw [hM c, Finset.le_fold_min]
      refine ⟨le_top, fun l _ => ?_⟩
      exact (Finset.fold_min_le (c := f _)).2 (Or.inr ⟨_, Finset.mem_univ _, le_rfl⟩)
    simp only [le_min_iff]
    exact ⟨⟨⟨⟨⟨⟨⟨⟨le_top, hle 0⟩, hle 1⟩, hle 2⟩, hle 3⟩, hle 4⟩, hle 5⟩, hle 6⟩, hle 7⟩

/-- The f32 words of the three constants the two programs carry besides zero: 2, and +∞. -/
theorem ofBits_two : Ideal.ofBits .f32 0x40000000#32 = ((2 : ℝ) : EReal) := by
  simp [Ideal.ofBits, Ideal.ieee, -EReal.coe_mul]; norm_num

theorem ofBits_inf : Ideal.ofBits .f32 0x7F800000#32 = ⊤ := by simp [Ideal.ofBits, Ideal.ieee]

end Cert.MinDist

end
-- ==== Proof.MinDistSpec.lean ====
/-
  The nearest-point distance of one joint, in the two arrangements the programs compute it in, and their equality.

  A holds the joints [nb,42,3]; the points come either point-major, P [nb,16384,3], or coordinate-major, O [nb,3,16384]
  (O[B,d,p] = P[B,p,d]). For batch B and joint j:
  * chunk by chunk (`rowOut`): the squared distance to point p is summed coordinate by coordinate from zero
    (`pointSq`); the minimum over each chunk of 2048 consecutive points is folded from +∞ (`chunkMin`), the eight chunk
    minima are folded from +∞ in order, and the square root is taken last;
  * point by point (`refRow`): the squared distance is expanded as |a|² + |p|² - 2⟨a,p⟩, clamped at zero, its square
    root taken (`refPoint`), and the minimum over all 16384 points folded from +∞.
  On real coordinates the two squared distances are the same non-negative real, the eight chunks exhaust the points,
  and the square root is monotone with √(+∞) = +∞: the two arrangements agree (`rowOut_eq_refRow`).
-/
import Idealize.ShloMosaic.Lib.ValueIdx
import proofs.«172332_j39565238730835_2_alg».proof.Proof.MinDistAlgebra

noncomputable section

namespace Cert.MinDist

open Idealize.ShloMosaic Idealize.ShloMosaic.ValueIdx

variable {nb : ℕ}

/-- The squared distance of joint (B, j) to point p, summed coordinate by coordinate from zero. -/
def pointSq (A : (⟨3, ![nb, 42, 3]⟩ : Shape).Idx → EReal) (O : (⟨3, ![nb, 3, 16384]⟩ : Shape).Idx → EReal)
    (B : Fin nb) (j : Fin 42) (p : Fin 16384) : EReal :=
  (((0 : EReal) + (A (ix3 B j 0) - O (ix3 B 0 p)) * (A (ix3 B j 0) - O (ix3 B 0 p)))
      + (A (ix3 B j 1) - O (ix3 B 1 p)) * (A (ix3 B j 1) - O (ix3 B 1 p)))
      + (A (ix3 B j 2) - O (ix3 B 2 p)) * (A (ix3 B j 2) - O (ix3 B 2 p))

/-- Its minimum over the 2048 points of chunk c, folded from +∞. -/
def chunkMin (A : (⟨3, ![nb, 42, 3]⟩ : Shape).Idx → EReal) (O : (⟨3, ![nb, 3, 16384]⟩ : Shape).Idx → EReal)
    (B : Fin nb) (j : Fin 42) (c : Fin 8) : EReal :=
  (Finset.univ : Finset (Fin 2048)).fold min ⊤
    (fun l => pointSq A O B j ⟨2048 * c.val + l.val, by have := c.isLt; have := l.isLt; omega⟩)

/-- The eight chunk minima folded from +∞ in order, then the square root. -/
def rowOut (A : (⟨3, ![nb, 42, 3]⟩ : Shape).Idx → EReal) (O : (⟨3, ![nb, 3, 16384]⟩ : Shape).Idx → EReal)
    (B : Fin nb) (j : Fin 42) : EReal :=
  Ideal.sqrt (min (min (min (min (min (min (min (min ⊤ (chunkMin A O B j 0)) (chunkMin A O B j 1)) (chunkMin A O B j 2))
    (chunkMin A O B j 3)) (chunkMin A O B j 4)) (chunkMin A O B j 5)) (chunkMin A O B j 6)) (chunkMin A O B j 7))

/-- The distance of joint (B, j) to point p by the expansion |a|² + |p|² - 2⟨a,p⟩, clamped at zero. -/
def refPoint (A : (⟨3, ![nb, 42, 3]⟩ : Shape).Idx → EReal) (P : (⟨3, ![nb, 16384, 3]⟩ : Shape).Idx → EReal)
    (B : Fin nb) (j : Fin 42) (p : Fin 16384) : EReal :=
  Ideal.sqrt (max ((((0 : EReal) + ∑ k : Fin 3, A (ix3 B j k) * A (ix3 B j k))
      + ((0 : EReal) + ∑ k : Fin 3, P (ix3 B p k) * P (ix3 B p k)))
      - ((2 : ℝ) : EReal) * ∑ k : Fin 3, A (ix3 B j k) * P (ix3 B p k)) 0)

/-- Its minimum over all the points, folded from +∞. -/
def refRow (A : (⟨3, ![nb, 42, 3]⟩ : Shape).Idx → EReal) (P : (⟨3, ![nb, 16384, 3]⟩ : Shape).Idx → EReal)
    (B : Fin nb) (j : Fin 42) : EReal :=
  (Finset.univ : Finset (Fin 16384)).fold min ⊤ (refPoint A P B j)

/-- On real coordinates the two arrangements agree. -/
theorem rowOut_eq_refRow (A : (⟨3, ![nb, 42, 3]⟩ : Shape).Idx → EReal) (O : (⟨3, ![nb, 3, 16384]⟩ : Shape).Idx → EReal)
    (P : (⟨3, ![nb, 16384, 3]⟩ : Shape).Idx → EReal) (hA : ∀ i, ∃ r : ℝ, A i = (r : EReal))
    (hP : ∀ i, ∃ r : ℝ, P i = (r : EReal)) (hO : ∀ (B : Fin nb) (d : Fin 3) (p : Fin 16384), O (ix3 B d p) = P (ix3 B p d))
    (B : Fin nb) (j : Fin 42) : rowOut A O B j = refRow A P B j := by
  unfold rowOut refRow
  rw [chunked_min (pointSq A O B j) (chunkMin A O B j) (fun c => rfl),
    map_fold_min Ideal.sqrt sqrt_mono Ideal.sqrt_top]
  refine congrArg (fun f : Fin 16384 → EReal => (Finset.univ : Finset (Fin 16384)).fold min ⊤ f) (funext fun p => ?_)
  obtain ⟨a0, h0⟩ := hA (ix3 B j 0)
  obtain ⟨a1, h1⟩ := hA (ix3 B j 1)
  obtain ⟨a2, h2⟩ := hA (ix3 B j 2)
  obtain ⟨o0, g0⟩ := hP (ix3 B p 0)
  obtain ⟨o1, g1⟩ := hP (ix3 B p 1)
  obtain ⟨o2, g2⟩ := hP (ix3 B p 2)
  unfold pointSq refPoint
  rw [hO, hO, hO, Fin.sum_univ_three, Fin.sum_univ_three, Fin.sum_univ_three, h0, h1, h2, g0, g1, g2, termwise_eq,
    expanded_eq]

/-- `rowOut` reads its arrays only on batch B: arrays that agree there give the same value. -/
theorem rowOut_congr {nb' : ℕ} (A : (⟨3, ![nb, 42, 3]⟩ : Shape).Idx → EReal) (O : (⟨3, ![nb, 3, 16384]⟩ : Shape).Idx → EReal)
    (A' : (⟨3, ![nb', 42, 3]⟩ : Shape).Idx → EReal) (O' : (⟨3, ![nb', 3, 16384]⟩ : Shape).Idx → EReal)
    (B : Fin nb) (B' : Fin nb') (j : Fin 42) (hA : ∀ d : Fin 3, A (ix3 B j d) = A' (ix3 B' j d))
    (hO : ∀ (d : Fin 3) (p : Fin 16384), O (ix3 B d p) = O' (ix3 B' d p)) : rowOut A O B j = rowOut A' O' B' j := by
  unfold rowOut chunkMin pointSq
  simp only [hA, hO]

/-- The nearest-point distance of every (batch, joint), chunk by chunk: an [nb,42] array. -/
def allRows (A : (⟨3, ![nb, 42, 3]⟩ : Shape).Idx → EReal) (O : (⟨3, ![nb, 3, 16384]⟩ : Shape).Idx → EReal) :
    (⟨2, ![nb, 42]⟩ : Shape).Idx → EReal := fun i => rowOut A O (i 0) (i 1)

theorem allRows_apply (A : (⟨3, ![nb, 42, 3]⟩ : Shape).Idx → EReal) (O : (⟨3, ![nb, 3, 16384]⟩ : Shape).Idx → EReal)
    (B : Fin nb) (j : Fin 42) : allRows A O (ix2 B j) = rowOut A O B j := rfl

/-- What both programs do with the [64,42] distances X and the targets g: the sum of (X - g)² from zero, divided by the
    f32 constant 2688. Kept closed: the two sides apply it to equal distances. -/
def mseTail (X g : FVec Ideal ⟨2, ![64, 42]⟩ .f32) (h : (⟨2, ![64, 42]⟩ : Shape).ReducesTo [0, 1] ⟨0, ![]⟩)
    (hu : 0 < (⟨0, ![]⟩ : Shape).numel) : FVec Ideal ⟨0, ![]⟩ .f32 :=
  Host.divf (F := Ideal) (Host.reduceAdd (F := Ideal) (mulf (subf X g) (subf X g)) (constant (F := Ideal) ⟨0, ![]⟩ .f32 0x00000000#32) h hu)
    (constant (F := Ideal) ⟨0, ![]⟩ .f32 0x45280000#32)

end Cert.MinDist

end
-- ==== Proof.KernelBlock.lean ====
/-
  What one grid step leaves in its output block, as one expression of its two input blocks.

  The step holds 8 batches: a joints block x0 [8,42,3] and a points block x1 [8,3,16384] (coordinate-major). It walks
  the 16384 points in eight chunks of 2048. For chunk c it forms, for every (batch b, joint j, lane l), the squared
  distance from zero, ((0 + (x0[b,j,0] - x1[b,0,2048c+l])²) + (x0[b,j,1] - x1[b,1,2048c+l])²) + (x0[b,j,2] - x1[b,2,2048c+l])²,
  takes the minimum over the lanes from +∞, and folds the eight chunk minima into a running minimum that starts at +∞.
  The stored block is the square root of the running minimum.
-/
import proofs.«172332_j39565238730835_2_alg».proof.Proof.Gen.KernelIdeal.Frame
import proofs.«172332_j39565238730835_2_alg».proof.Proof.LibRank3UnitAxes
import proofs.«172332_j39565238730835_2_alg».proof.Proof.MinDistSpec
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.ValueIdx

namespace Cert.KernelIdeal.Block

open Cert.KernelIdeal Cert.KernelIdeal.Gen Cert.Rank3UnitAxes

variable {F : FTy → Type} [FloatOps F]

theorem hz2 : (![0, 0] : Fin 2 → Nat) = fun _ => 0 := funext fun a => by fin_cases a <;> rfl

/-- Column d of the joints block lies inside it. -/
theorem joint_inb (d : Fin 3) : ∀ a, (![0, 0, d.val] : Fin 3 → Nat) a + S8x42x1.size a ≤ S8x42x3.size a := fun a =>
  match a with
  | ⟨0, _⟩ => by show 0 + 8 ≤ 8; omega
  | ⟨1, _⟩ => by show 0 + 42 ≤ 42; omega
  | ⟨2, _⟩ => by show d.val + 1 ≤ 3; have := d.isLt; omega

/-- Coordinate d of the points of chunk c lies inside the points block. -/
theorem points_inb (c : Fin 8) (d : Fin 3) :
    ∀ a, (![0, d.val, 2048 * c.val] : Fin 3 → Nat) a + S8x1x2048.size a ≤ S8x3x16384.size a := fun a =>
  match a with
  | ⟨0, _⟩ => by show 0 + 8 ≤ 8; omega
  | ⟨1, _⟩ => by show d.val + 1 ≤ 3; have := d.isLt; omega
  | ⟨2, _⟩ => by show 2048 * c.val + 2048 ≤ 16384; have := c.isLt; omega

/-- Coordinate d of every joint of the block: the column, as an [8,42] array. -/
def jointCoord (x0 : Vec F S8x42x3 .f32) (d : Fin 3) : FVec F S8x42 .f32 :=
  shapeCast S8x42 (View.ld x0 (Rect.unit (s := S8x42x3) ![0, 0, d.val] S8x42x1.size (joint_inb d))) shapeCasts_S8x42x1_S8x42

/-- Coordinate d of the 2048 points of chunk c, as loaded: an [8,1,2048] array. -/
def pointCoord (x1 : Vec F S8x3x16384 .f32) (c : Fin 8) (d : Fin 3) : Vec F S8x1x2048 .f32 :=
  View.ld x1 (Rect.unit (s := S8x3x16384) ![0, d.val, 2048 * c.val] S8x1x2048.size (points_inb c d))

/-- The joints' coordinate repeated along the lanes minus the points' coordinate repeated along the joints. -/
def diff (a : FVec F S8x42 .f32) (o : Vec F S8x1x2048 .f32) : FVec F S8x42x2048 .f32 :=
  subf (broadcastTo S8x42x2048 (shapeCast S8x42x1 a shapeCasts_S8x42_S8x42x1) broadcasts_S8x42x1_S8x42x2048)
    (broadcastTo S8x42x2048 (shapeCast S8x1x2048 (shapeCast S8x2048 o shapeCasts_S8x1x2048_S8x2048) shapeCasts_S8x2048_S8x1x2048)
      broadcasts_S8x1x2048_S8x42x2048)

/-- One coordinate's squared difference. -/
def sqTerm (a : FVec F S8x42 .f32) (o : Vec F S8x1x2048 .f32) : FVec F S8x42x2048 .f32 := mulf (diff a o) (diff a o)

/-- The squared distances of every (batch, joint) to the points of chunk c, summed coordinate by coordinate from zero. -/
def chunkSq (x0 : Vec F S8x42x3 .f32) (x1 : Vec F S8x3x16384 .f32) (c : Fin 8) : FVec F S8x42x2048 .f32 :=
  addf (addf (addf (broadcast S8x42x2048 (Scalar.ofBits .f32 0x00000000#32))
    (sqTerm (jointCoord x0 0) (pointCoord x1 c 0))) (sqTerm (jointCoord x0 1) (pointCoord x1 c 1)))
    (sqTerm (jointCoord x0 2) (pointCoord x1 c 2))

/-- The minimum over the lanes from +∞, kept as a trailing unit axis. -/
def laneMin (v : FVec F S8x42x2048 .f32) : FVec F S8x42x1 .f32 :=
  shapeCast S8x42x1 (multiReduction .minimumf [2] S8x42 v 0x7F800000#32 reduces_S8x42x2048_S8x42 (.inl rfl) rfl) shapeCasts_S8x42_S8x42x1

/-- The running minimum after the eight chunks: the chunk minima folded from +∞ in order. -/
def runMin (x0 : Vec F S8x42x3 .f32) (x1 : Vec F S8x3x16384 .f32) : FVec F S8x42x1 .f32 :=
  minimumf (minimumf (minimumf (minimumf (minimumf (minimumf (minimumf (minimumf
    (broadcast S8x42x1 (Scalar.ofBits .f32 0x7F800000#32))
    (laneMin (chunkSq x0 x1 0))) (laneMin (chunkSq x0 x1 1))) (laneMin (chunkSq x0 x1 2))) (laneMin (chunkSq x0 x1 3)))
    (laneMin (chunkSq x0 x1 4))) (laneMin (chunkSq x0 x1 5))) (laneMin (chunkSq x0 x1 6))) (laneMin (chunkSq x0 x1 7))

/-- The block the step stores: the square root of the running minimum. -/
def blockOut (x0 : Vec F S8x42x3 .f32) (x1 : Vec F S8x3x16384 .f32) : FVec F S8x42 .f32 :=
  sqrt (shapeCast S8x42 (runMin x0 x1) shapeCasts_S8x42x1_S8x42)

/-- The body's one covering store holds that expression of the two input blocks, on any staging buffers. -/
theorem out_eq (c : Dev nD) (i : grid0.Coords) (a1 : Memref sig .tc .vmem S8x42x3 .f32) (h1 : a1.IsWhole)
    (a2 : Memref sig .tc .vmem S8x3x16384 .f32) (h2 : a2.IsWhole) (a3 : Memref sig .tc .vmem S8x42 .f32) (h3 : a3.IsWhole)
    (x0 : Vec F S8x42x3 .f32) (x1 : Vec F S8x3x16384 .f32) :
    out0_A_2 c i a1 h1 a2 h2 a3 h3 x0 x1 = blockOut x0 x1 := by
  unfold out0_A_2
  rw [View.read_writes_eq_canon _ _ _ (cover0_A_2 c i a1 h1 a2 h2 a3 h3 x0 x1)]
  unfold kernelRun0_A
  dsimp only
  sl_unfold_words
  rw [View.canon_unit_zero hz2]
  simp only [View.readAt_eq_ld, h1.read_unread, h2.read_unread]
  rfl

/-! ## The block at the ideal values, entry by entry -/

/-- Coordinate d of joint (b, j) is the joints block's entry (b, j, d). -/
theorem jointCoord_apply (x0 : Vec Ideal S8x42x3 .f32) (d : Fin 3) (b : Fin 8) (j : Fin 42) :
    jointCoord x0 d (ix2 b j) = x0 (ix3 b j d) := by
  unfold jointCoord
  refine (shapeCast_ab1_ab_apply _ _ b j).trans ?_
  exact ld_unit_apply x0 _ _ _ (ix3 b j (0 : Fin 1)) (ix3 b j d) (fun ax => match ax with
    | ⟨0, _⟩ => by show b.val = 0 + b.val; omega
    | ⟨1, _⟩ => by show j.val = 0 + j.val; omega
    | ⟨2, _⟩ => by show d.val = d.val + 0; omega)

/-- Coordinate d of lane l of chunk c is the points block's entry (b, d, 2048c + l). -/
theorem pointCoord_apply (x1 : Vec Ideal S8x3x16384 .f32) (c : Fin 8) (d : Fin 3) (b : Fin 8) (l : Fin 2048) :
    pointCoord x1 c d (ix3 b (0 : Fin 1) l)
      = x1 (ix3 b d (⟨2048 * c.val + l.val, by have := c.isLt; have := l.isLt; omega⟩ : Fin 16384)) := by
  unfold pointCoord
  exact ld_unit_apply x1 _ _ _ (ix3 b (0 : Fin 1) l) (ix3 b d _) (fun ax => match ax with
    | ⟨0, _⟩ => by show b.val = 0 + b.val; omega
    | ⟨1, _⟩ => by show d.val = d.val + 0; omega
    | ⟨2, _⟩ => by show 2048 * c.val + l.val = 2048 * c.val + l.val; rfl)

/-- One coordinate's squared difference at (b, j, l). -/
theorem sqTerm_apply (a : FVec Ideal S8x42 .f32) (o : Vec Ideal S8x1x2048 .f32) (b : Fin 8) (j : Fin 42) (l : Fin 2048) :
    sqTerm a o (ix3 b j l) = (a (ix2 b j) - o (ix3 b (0 : Fin 1) l)) * (a (ix2 b j) - o (ix3 b (0 : Fin 1) l)) := by
  have hd : diff a o (ix3 b j l) = a (ix2 b j) - o (ix3 b (0 : Fin 1) l) := by
    unfold diff
    rw [subf_apply, broadcastTo_ab1_abn_apply, shapeCast_ab_ab1_apply, broadcastTo_a1n_abn_apply, shapeCast_an_a1n_apply,
      shapeCast_a1n_an_apply]
  unfold sqTerm
  rw [mulf_apply, hd]

/-- The chunk's squared distances at (b, j, l): the spec's coordinate-by-coordinate sum at point 2048c + l. -/
theorem chunkSq_apply (x0 : Vec Ideal S8x42x3 .f32) (x1 : Vec Ideal S8x3x16384 .f32) (c : Fin 8) (b : Fin 8) (j : Fin 42)
    (l : Fin 2048) :
    chunkSq x0 x1 c (ix3 b j l)
      = Cert.MinDist.pointSq x0 x1 b j (⟨2048 * c.val + l.val, by have := c.isLt; have := l.isLt; omega⟩ : Fin 16384) := by
  unfold chunkSq Cert.MinDist.pointSq
  rw [addf_apply, addf_apply, addf_apply, sqTerm_apply, sqTerm_apply, sqTerm_apply, jointCoord_apply, jointCoord_apply,
    jointCoord_apply, pointCoord_apply, pointCoord_apply, pointCoord_apply]
  show ((Ideal.ofBits .f32 0x00000000#32 + _) + _) + _ = _
  rw [Ideal.ofBits_zero_f32]

/-- The lane minimum of chunk c at (b, j): the spec's chunk minimum. -/
theorem laneMin_chunkSq_apply (x0 : Vec Ideal S8x42x3 .f32) (x1 : Vec Ideal S8x3x16384 .f32) (c : Fin 8) (b : Fin 8)
    (j : Fin 42) (u : Fin 1) : laneMin (chunkSq x0 x1 c) (ix3 b j u) = Cert.MinDist.chunkMin x0 x1 b j c := by
  unfold laneMin
  refine (shapeCast_ab_ab1_apply _ _ b j u).trans ?_
  refine (multiReduction_minimumf_last _ _ _ _ _ b j).trans ?_
  rw [Cert.MinDist.ofBits_inf]
  unfold Cert.MinDist.chunkMin
  exact congrArg (fun f : Fin 2048 → EReal => (Finset.univ : Finset (Fin 2048)).fold min ⊤ f)
    (funext fun l => chunkSq_apply x0 x1 c b j l)

/-- The running minimum at (b, j): the spec's eight chunk minima folded from +∞. -/
theorem runMin_apply (x0 : Vec Ideal S8x42x3 .f32) (x1 : Vec Ideal S8x3x16384 .f32) (b : Fin 8) (j : Fin 42) (u : Fin 1) :
    runMin x0 x1 (ix3 b j u)
      = min (min (min (min (min (min (min (min ⊤ (Cert.MinDist.chunkMin x0 x1 b j 0)) (Cert.MinDist.chunkMin x0 x1 b j 1))
          (Cert.MinDist.chunkMin x0 x1 b j 2)) (Cert.MinDist.chunkMin x0 x1 b j 3)) (Cert.MinDist.chunkMin x0 x1 b j 4))
          (Cert.MinDist.chunkMin x0 x1 b j 5)) (Cert.MinDist.chunkMin x0 x1 b j 6)) (Cert.MinDist.chunkMin x0 x1 b j 7) := by
  unfold runMin
  rw [minimumf_apply, minimumf_apply, minimumf_apply, minimumf_apply, minimumf_apply, minimumf_apply, minimumf_apply,
    minimumf_apply, laneMin_chunkSq_apply, laneMin_chunkSq_apply, laneMin_chunkSq_apply, laneMin_chunkSq_apply,
    laneMin_chunkSq_apply, laneMin_chunkSq_apply, laneMin_chunkSq_apply, laneMin_chunkSq_apply, broadcast_apply]
  refine congrArg (fun z : EReal => min (min (min (min (min (min (min (min z _) _) _) _) _) _) _) _) ?_
  exact Cert.MinDist.ofBits_inf

/-- The square root of a vector, entry by entry. -/
theorem sqrt_apply {s : Shape} (v : FVec Ideal s .f32) (i : s.Idx) : sqrt v i = Ideal.sqrt (v i) := rfl

/-- The stored block at (b, j): the chunked nearest-point distance of the block's joints and points. -/
theorem blockOut_apply (x0 : Vec Ideal S8x42x3 .f32) (x1 : Vec Ideal S8x3x16384 .f32) (b : Fin 8) (j : Fin 42) :
    blockOut x0 x1 (ix2 b j) = Cert.MinDist.rowOut x0 x1 b j := by
  unfold blockOut Cert.MinDist.rowOut
  rw [sqrt_apply, shapeCast_ab1_ab_apply, runMin_apply]

end Cert.KernelIdeal.Block

end
-- ==== Proof.KernelValue.lean ====
/-
  The kernel's run, read: the scalar it returns is the shared mean-square tail of the [64,42] array of chunked
  nearest-point distances of the joints and the coordinate-major points.

  Grid step t works on batches 8t … 8t+7: its joints block is rows 8t+b of the joints array, its points block rows 8t+b
  of the transposed points array, and it writes rows 8t+b of the result. Row by row the stored block is the spec's
  `rowOut` of the whole arrays (a row's value reads only its own batch), the eight steps cover all 64 rows, and the
  host lines after the call apply the tail to that array.
-/
import proofs.«172332_j39565238730835_2_alg».proof.Proof.KernelBlock
import Idealize.ShloMosaic.Lib.Pipeline.Value
import Idealize.ShloMosaic.Lib.ValueLayout
import Idealize.ShloMosaic.Lib.StableHlo.Run

noncomputable section

open Idealize.ShloMosaic Idealize.ShloMosaic.TcCoe Idealize.SL.Sem
open Idealize.ShloMosaic.ValueIdx
open Idealize.ShloMosaic.Pipeline (Dat)

namespace Cert.KernelIdeal.RunValue

open Cert.KernelIdeal Cert.KernelIdeal.Gen Cert.KernelIdeal.Block

variable (m : (ℓ : Loc nD τ sig) → Buf (Elt Ideal) ℓ) (ρ : Dev nD → PrngReg)

/-- Every window's block index is the grid step on the batch axis and zero elsewhere. -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 ∧ win0_2.index t (0 : Fin 2) = t.val ∧ win0_2.index t (1 : Fin 2) = 0 :=
  (by decide +kernel : ∀ t : Fin grid0.N, _)

/-- Batch b of grid step t is batch 8t + b of the arrays. -/
def row (t : Fin cfg0.N) (b : Fin 8) : Fin 64 :=
  ⟨8 * t.val + b.val, by have := t.isLt; have hN : cfg0.N = 8 := N_0; have := b.isLt; omega⟩

/-- The joints block of step t is rows 8t + b of the joints array. -/
theorem iblk0_apply (c : Dev nD) (t : Fin cfg0.N) (b : Fin 8) (j : Fin 42) (d : Fin 3) :
    iblk m c 0 t (ix3 b j d) = V m c main_arg0 (ix3 (row t b) j d) := by
  obtain ⟨e0, e1, e2, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 3) * 8 + 1 * b.val = 8 * t.val + b.val; rw [e0]; omega
  | ⟨1, _⟩ => show win0_0.index t (1 : Fin 3) * 42 + 1 * j.val = j.val; rw [e1]; omega
  | ⟨2, _⟩ => show win0_0.index t (2 : Fin 3) * 3 + 1 * d.val = d.val; rw [e2]; omega

/-- The points block of step t is rows 8t + b of the coordinate-major points array. -/
theorem iblk1_apply (c : Dev nD) (t : Fin cfg0.N) (b : Fin 8) (d : Fin 3) (p : Fin 16384) :
    iblk m c 1 t (ix3 b d p) = V m c main_v0 (ix3 (row t b) d p) := by
  obtain ⟨-, -, -, e0, e1, e2, -⟩ := idx_facts t
  unfold iblk
  rw [View.read_apply]
  show V m c main_v0 _ = V m c main_v0 _
  refine congrArg (V m c main_v0) (funext fun a => Fin.ext ?_)
  match a with
  | ⟨0, _⟩ => show win0_1.index t (0 : Fin 3) * 8 + 1 * b.val = 8 * t.val + b.val; rw [e0]; omega
  | ⟨1, _⟩ => show win0_1.index t (1 : Fin 3) * 3 + 1 * d.val = d.val; rw [e1]; omega
  | ⟨2, _⟩ => show win0_1.index t (2 : Fin 3) * 16384 + 1 * p.val = p.val; rw [e2]; omega

/-- What step t writes back is rows 8t … 8t+7 of the chunked distances of the whole arrays. -/
theorem flushed_eq (c : Dev nD) (t : Fin cfg0.N) :
    (dats m 0 c).flushed 2 t
      = ((cfg0.win 2).blk t).view.read (Elt Ideal) (Cert.MinDist.allRows (nb := 64) (V m c main_arg0) (V m c main_v0)) := by
  obtain ⟨-, -, -, -, -, -, e6, e7⟩ := idx_facts t
  show (cfg0.win 2).cut (grid0.coords t) ((dats m 0 c).after 2 t) = _
  rw [after0_2]
  unfold outsAt0
  rw [out_eq]
  funext y
  obtain ⟨b, j, rfl⟩ : ∃ (b : Fin 8) (j : Fin 42), y = ix2 b j := ⟨y 0, y 1, eq_ix2 y⟩
  rw [View.read_apply]
  have hemb : ((cfg0.win 2).blk t).view.emb (ix2 b j) = ix2 (row t b) j := funext fun a => Fin.ext (by
    match a with
    | ⟨0, _⟩ => show win0_2.index t (0 : Fin 2) * 8 + 1 * b.val = 8 * t.val + b.val; rw [e6]; omega
    | ⟨1, _⟩ => show win0_2.index t (1 : Fin 2) * 42 + 1 * j.val = j.val; rw [e7]; omega)
  rw [hemb]
  show blockOut (iblk m c 0 t) (iblk m c 1 t) (ix2 b j) = Cert.MinDist.rowOut (V m c main_arg0) (V m c main_v0) (row t b) j
  refine (blockOut_apply _ _ b j).trans ?_
  exact Cert.MinDist.rowOut_congr _ _ _ _ b (row t b) j (fun d => iblk0_apply m c t b j d) (fun d p => iblk1_apply m c t b d p)

/-- An index of the result array is in step t's block iff each coordinate is in the block's range on its axis. -/
theorem mem_blk (t : Fin cfg0.N) (i : S64x42.Idx) :
    i ∈ ((cfg0.win 2).blk t).view.set ↔ ∀ a : Fin 2, win0_2.index t a * S8x42.size a ≤ (i a).val
      ∧ (i a).val < win0_2.index t a * S8x42.size a + S8x42.size a := by
  show i ∈ ((View.whole main_v1).slice (win0_2.rect t)).set ↔ _
  rw [View.set_slice_whole, Rect.mem_set_unit]
  exact Iff.rfl

/-- The eight steps' blocks cover the 64 rows: the result array ends holding the chunked distances of the arrays. -/
theorem final (c : Dev nD) :
    (dats m 0 c).arrAt 2 cfg0.N = Cert.MinDist.allRows (nb := 64) (V m c main_arg0) (V m c main_v0) :=
  (dats m 0 c).arrAt_eq_of_cover 2 _ (fun t _ => flushed_eq m c t) fun i => by
    have hN : cfg0.N = 8 := N_0
    have h0 : (i 0).val < 64 := (i 0).isLt
    have h1 : (i 1).val < 42 := (i 1).isLt
    have hq : (i 0).val / 8 < cfg0.N := by omega
    obtain ⟨-, -, -, -, -, -, e6, e7⟩ := idx_facts ⟨(i 0).val / 8, hq⟩
    refine ⟨⟨(i 0).val / 8, hq⟩, flush0_2 _, ?_⟩
    rw [mem_blk]
    intro a
    match a with
    | ⟨0, _⟩ =>
      show win0_2.index ⟨(i 0).val / 8, hq⟩ (0 : Fin 2) * 8 ≤ (i 0).val
        ∧ (i 0).val < win0_2.index ⟨(i 0).val / 8, hq⟩ (0 : Fin 2) * 8 + 8
      rw [e6]; show (i 0).val / 8 * 8 ≤ (i 0).val ∧ (i 0).val < (i 0).val / 8 * 8 + 8; omega
    | ⟨1, _⟩ =>
      show win0_2.index ⟨(i 0).val / 8, hq⟩ (1 : Fin 2) * 42 ≤ (i 1).val
        ∧ (i 1).val < win0_2.index ⟨(i 0).val / 8, hq⟩ (1 : Fin 2) * 42 + 42
      rw [e7]; omega

/-- The points array as the call finds it: the host's transposition of the argument. -/
theorem V_main_v0 (c : Dev nD) :
    (V m c main_v0 : S64x3x16384.Idx → EReal)
      = transpose S64x3x16384 [0, 2, 1] (m ((c : Thread nD τ).loc main_arg1)) transposes_S64x16384x3_S64x3x16384_0_2_1 := by
  show StableHlo.after hostOps0 (fun b => m (c, b)) (Proc.devRef .tc main_v0) = _
  after_results

/-- The host lines after the call: the scalar result is the shared tail of the result array and the targets. -/
theorem tail_eq (c : Dev nD) :
    Pipeline.afterTail₀ cfgs (dats m) 0 (V0 m) [hostOps1] c main_v5
      = Cert.MinDist.mseTail (Cert.MinDist.allRows (nb := 64) (V m c main_arg0) (V m c main_v0))
          (m ((c : Thread nD τ).loc main_arg2)) reducesTo_S64x42_S_d0_1 h_S_ := by
  unfold Pipeline.afterTail₀
  show StableHlo.after hostOps1 _ (Proc.devRef .tc main_v5) = _
  after_results
  have e1 : Pipeline.withArrays (cfgs 0).spec c (V0 m c) (fun w => (dats m 0 c).arrAt w (cfgs 0).N) (Proc.devRef .tc main_v1)
      = Cert.MinDist.allRows (nb := 64) (V m c main_arg0) (V m c main_v0) :=
    (Pipeline.withArrays_arr spec0 launch0.win.arr_inj c _ _ 2).trans (final m c)
  have e2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans
      (V_main_arg2 m c)
  rw [e1, e2]
  rfl

/-- The kernel's run, read: the result at the tail of the chunked distances of the joints and the transposed points,
    the three arguments unchanged. -/
theorem run : θ_run defs (onTc (τ := τ) (main (F := Ideal))) ⟨m, fun _ => 0, ρ⟩ fun r => ∀ c : Dev nD,
      r.2.mem ((c : Thread nD τ).loc main_v5)
        = Cert.MinDist.mseTail (Cert.MinDist.allRows (nb := 64) (m ((c : Thread nD τ).loc main_arg0))
            (transpose S64x3x16384 [0, 2, 1] (m ((c : Thread nD τ).loc main_arg1)) transposes_S64x16384x3_S64x3x16384_0_2_1))
            (m ((c : Thread nD τ).loc main_arg2)) reducesTo_S64x42_S_d0_1 h_S_
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨(((h c).2 main_v5 (Pipeline.mem_restRefs_of main_v5 (by decide) (by decide))).trans (tail_eq m c)).trans
        (by rw [V_main_arg0, V_main_v0]),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.RunValue

end
-- ==== Proof.RefValue.lean ====
/-
  The reference, read at an index: its [64,42] array of nearest-point distances is the spec's point-by-point minimum
  `refRow` of its two arguments, and its scalar result is the shared mean-square tail of that array.

  For (B, j, p) the reference forms |a|² (a sum over the three coordinates from zero, broadcast along the points),
  |p|² (likewise, broadcast along the joints), 2·⟨a,p⟩ (a batched contraction over the coordinate axis), clamps
  |a|² + |p|² - 2⟨a,p⟩ at zero, takes the square root, and folds the minimum over p from +∞.
-/
import proofs.«172332_j39565238730835_2_alg».proof.Defs
import proofs.«172332_j39565238730835_2_alg».proof.Proof.Gen.ReferenceIdeal.Read
import proofs.«172332_j39565238730835_2_alg».proof.Proof.LibRank3UnitAxes
import proofs.«172332_j39565238730835_2_alg».proof.Proof.MinDistSpec

noncomputable section

open Idealize.ShloMosaic Idealize.ShloMosaic.TcCoe Idealize.SL.Sem
open Idealize.ShloMosaic.ValueIdx

namespace Cert.ReferenceIdeal.RefValue

open Cert.ReferenceIdeal Cert.ReferenceIdeal.Gen Cert.ReferenceIdeal.Read Cert.Rank3UnitAxes

/-- The distance of joint (B, j) to point p as the reference computes it. -/
theorem dist_apply (x0 : (⟨S64x42x3, .f32⟩ : BufTy).Contents (Elt Ideal)) (x1 : (⟨S64x16384x3, .f32⟩ : BufTy).Contents (Elt Ideal))
    (B : Fin 64) (j : Fin 42) (p : Fin 16384) :
    val_main_v15 (F := Ideal) x0 x1 (ix3 B j p) = Cert.MinDist.refPoint x0 x1 B j p := by
  have e1 : ∀ k : Fin 3, idx_main_v1 (idx_main_v5 (idx_main_v7 (ix3 B j p))) k = ix3 B j k := fun k =>
    funext fun a => Fin.ext (by match a with | ⟨0, _⟩ => rfl | ⟨1, _⟩ => rfl | ⟨2, _⟩ => rfl)
  have e3 : ∀ k : Fin 3, idx_main_v3 (idx_main_v6 (idx_main_v8 (ix3 B j p))) k = ix3 B p k := fun k =>
    funext fun a => Fin.ext (by match a with | ⟨0, _⟩ => rfl | ⟨1, _⟩ => rfl | ⟨2, _⟩ => rfl)
  have el : ∀ k : Fin 3, lidx_main_v4 (ix3 B j p) k = ix3 B j k := fun k =>
    funext fun a => Fin.ext (by match a with | ⟨0, _⟩ => rfl | ⟨1, _⟩ => rfl | ⟨2, _⟩ => rfl)
  have er : ∀ k : Fin 3, ridx_main_v4 (ix3 B j p) k = ix3 B p k := fun k =>
    funext fun a => Fin.ext (by match a with | ⟨0, _⟩ => rfl | ⟨1, _⟩ => rfl | ⟨2, _⟩ => rfl)
  rw [val_main_v15_apply, val_main_v14_apply, val_main_v12_apply, val_main_v9_apply, val_main_v7_apply, val_main_v5_apply,
    val_main_v1_apply, val_main_v8_apply, val_main_v6_apply, val_main_v3_apply, val_main_v11_apply, val_main_v10_apply,
    val_main_v4_apply, val_main_v13_apply, val_main_cst_apply, val_main_cst_0_apply, val_main_cst_1_apply,
    val_main_cst_2_apply]
  simp only [e1, e3, el, er, val_main_v0_apply, val_main_v2_apply, Ideal.hostUnary_sqrt_def, Ideal.maximumf_def,
    Ideal.subf_def, Ideal.addf_def, Ideal.mulf_def, Ideal.ofBits_def, Ideal.ofBits_zero_f32, Cert.MinDist.ofBits_two]
  rfl

/-- The reference's distances at (B, j): the minimum over all points, folded from +∞. -/
theorem row_apply (x0 : (⟨S64x42x3, .f32⟩ : BufTy).Contents (Elt Ideal)) (x1 : (⟨S64x16384x3, .f32⟩ : BufTy).Contents (Elt Ideal))
    (B : Fin 64) (j : Fin 42) : val_main_v16 (F := Ideal) x0 x1 (ix2 B j) = Cert.MinDist.refRow x0 x1 B j := by
  unfold val_main_v16 Cert.MinDist.refRow
  refine (hostReduce_minimumf_last _ _ reducesTo_S64x42x16384_S64x42_d2 (by decide) h_S_ B j).trans ?_
  rw [val_main_cst_3_apply, Ideal.ofBits_def, Cert.MinDist.ofBits_inf]
  exact congrArg (fun f : Fin 16384 → EReal => (Finset.univ : Finset (Fin 16384)).fold min ⊤ f)
    (funext fun p => dist_apply x0 x1 B j p)

/-- The reference's result is the shared tail of its distances. -/
theorem result_eq (x0 : (⟨S64x42x3, .f32⟩ : BufTy).Contents (Elt Ideal)) (x1 : (⟨S64x16384x3, .f32⟩ : BufTy).Contents (Elt Ideal))
    (x2 : (⟨S64x42, .f32⟩ : BufTy).Contents (Elt Ideal)) :
    val_main_v20 (F := Ideal) x0 x1 x2 = Cert.MinDist.mseTail (val_main_v16 (F := Ideal) x0 x1) x2 reducesTo_S64x42_S_d0_1 h_S_ := rfl

end Cert.ReferenceIdeal.RefValue

end
-- ==== Proof.Finite.lean ====
/-
  The precondition read back: when "every |x| < +∞" holds of the three inputs, every joint coordinate and every point
  coordinate is a real number (neither infinity).
-/
import proofs.«172332_j39565238730835_2_alg».proof.Pre_finite_inputs
import proofs.«172332_j39565238730835_2_alg».proof.Proof.MinDistAlgebra
import Idealize.ShloMosaic.Lib.ReduceAll
import Idealize.ShloMosaic.Lib.ValueIdx

noncomputable section

open Idealize.ShloMosaic

namespace Cert.FiniteInputs

instance : Subsingleton Cert.Pre_finite_inputs.S_.Idx := ⟨fun a b => funext fun d => d.elim0⟩

/-- |x| < +∞ holds only of a real number. -/
theorem real_of_abs_lt_inf (x : Ideal .f32)
    (h : FloatOps.cmpf .olt (FloatOps.hostAbsf x) (FloatOps.ofBits (F := Ideal) .f32 0x7F800000#32) = 1#1) :
    ∃ r : ℝ, (x : EReal) = (r : EReal) := by
  change Ideal.cmp .olt (max (x : EReal) (-(x : EReal))) (Ideal.ofBits .f32 0x7F800000#32) = 1#1 at h
  rw [Cert.MinDist.ofBits_inf] at h
  unfold Ideal.cmp at h
  induction x using EReal.rec with
  | bot => simp at h
  | top => simp at h
  | coe r => exact ⟨r, rfl⟩

open Cert.Pre_finite_inputs in
/-- Under the precondition the joints and the points have real coordinates. -/
theorem real_of_pre [Cert.Pre_finite_inputs.Facts] (a0 : FVec Ideal S64x42x3 .f32) (a1 : FVec Ideal S64x16384x3 .f32)
    (a2 : FVec Ideal S64x42 .f32) (h : Cert.Pre_finite_inputs.fn (F := Ideal) a0 a1 a2 = fun _ => 1#1) :
    (∀ i, ∃ r : ℝ, (a0 i : EReal) = (r : EReal)) ∧ (∀ i, ∃ r : ℝ, (a1 i : EReal) = (r : EReal)) := by
  have h0 := congrFun h ValueIdx.ix0
  dsimp only [Cert.Pre_finite_inputs.fn] at h0
  obtain ⟨h01, -⟩ := IntOp.andi_eq_one.1 h0
  obtain ⟨hA, hP⟩ := IntOp.andi_eq_one.1 h01
  exact ⟨fun i => real_of_abs_lt_inf _ (Host.reduce_andi_all _ _ _ _ _ hA i),
    fun i => real_of_abs_lt_inf _ (Host.reduce_andi_all _ _ _ _ _ hP i)⟩

end Cert.FiniteInputs

end
-- ==== Proof.lean ====
/-
  The nearest-surface-point loss: for 64 batches of 42 joints and 16384 points in space, the distance of each joint to
  its nearest point, compared with a target by the mean of squared differences.

  The kernel walks the points in chunks of 2048, sums (a - o)² coordinate by coordinate, keeps a running minimum of the
  squared distances and takes one square root at the end; the reference expands |a|² + |p|² - 2⟨a,p⟩, clamps at zero,
  takes the square root of every pair and then the minimum. On finite inputs — the expansion needs real coordinates —
  the squared distances are the same non-negative reals, the eight chunks exhaust the points, and the square root is
  monotone, so the two [64,42] arrays of distances are equal entry by entry (Proof/MinDistSpec.lean); both programs
  then apply the same lines to them. The three frames are the generated ones (the reference's is its generated run with
  the result dropped); the ideal pass rewrote nothing.
-/
import proofs.«172332_j39565238730835_2_alg».proof.Defs
import proofs.«172332_j39565238730835_2_alg».proof.Proof.Gen.Kernel
import proofs.«172332_j39565238730835_2_alg».proof.Proof.Gen.Kernel.Skeleton
import proofs.«172332_j39565238730835_2_alg».proof.Proof.Gen.Kernel.Launch
import proofs.«172332_j39565238730835_2_alg».proof.Proof.Gen.Kernel.Points
import proofs.«172332_j39565238730835_2_alg».proof.Proof.Gen.Kernel.Frame
import proofs.«172332_j39565238730835_2_alg».proof.Proof.Gen.KernelIdeal
import proofs.«172332_j39565238730835_2_alg».proof.Proof.Gen.KernelIdeal.Skeleton
import proofs.«172332_j39565238730835_2_alg».proof.Proof.Gen.KernelIdeal.Launch
import proofs.«172332_j39565238730835_2_alg».proof.Proof.Gen.KernelIdeal.Points
import proofs.«172332_j39565238730835_2_alg».proof.Proof.Gen.KernelIdeal.Frame
import proofs.«172332_j39565238730835_2_alg».proof.Proof.Gen.ReferenceIdeal
import proofs.«172332_j39565238730835_2_alg».proof.Proof.Gen.ReferenceIdeal.Run
import proofs.«172332_j39565238730835_2_alg».proof.Proof.Gen.ReferenceIdeal.Read
import proofs.«172332_j39565238730835_2_alg».proof.Proof.Gen.Pre_finite_inputs
import proofs.«172332_j39565238730835_2_alg».proof.Proof.KernelValue
import proofs.«172332_j39565238730835_2_alg».proof.Proof.RefValue
import proofs.«172332_j39565238730835_2_alg».proof.Proof.Finite
import Idealize.ShloMosaic.Lib.ValueLayout
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- On real coordinates the reference's distances are the chunked distances of the joints and the transposed points. -/
theorem ref_distances_eq (x0 : (⟨Cert.ReferenceIdeal.S64x42x3, .f32⟩ : BufTy).Contents (Elt Ideal))
    (x1 : (⟨Cert.ReferenceIdeal.S64x16384x3, .f32⟩ : BufTy).Contents (Elt Ideal))
    (hA : ∀ i, ∃ r : ℝ, (x0 i : EReal) = (r : EReal)) (hP : ∀ i, ∃ r : ℝ, (x1 i : EReal) = (r : EReal)) :
    Cert.ReferenceIdeal.Read.val_main_v16 (F := Ideal) x0 x1
      = Cert.MinDist.allRows (nb := 64) x0
          (transpose Cert.KernelIdeal.S64x3x16384 [0, 2, 1] x1 Cert.KernelIdeal.Facts₀.transposes_S64x16384x3_S64x3x16384_0_2_1) := by
  funext i
  obtain ⟨B, j, rfl⟩ : ∃ (B : Fin 64) (j : Fin 42), i = ix2 B j := ⟨i 0, i 1, eq_ix2 i⟩
  rw [Cert.ReferenceIdeal.RefValue.row_apply, Cert.MinDist.allRows_apply]
  exact (Cert.MinDist.rowOut_eq_refRow x0 _ x1 hA hP (fun B d p => transpose_ix3_021_apply x1 _ B d p) B j).symm

/-- Both runs end, from memories that agree on the arguments, at the shared tail of equal distance arrays. -/
theorem algebraic : Cert.algebraic_KernelIdeal_ReferenceIdeal := by
  intro m ρ m' ρ' hpre hagree
  refine ⟨_, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  obtain ⟨hA, hP⟩ := Cert.FiniteInputs.real_of_pre _ _ _ (hpre c)
  rw [Cert.ReferenceIdeal.Read.val_main_v20_eq, Cert.ReferenceIdeal.RefValue.result_eq, (hagree c).1, (hagree c).2.1,
    (hagree c).2.2, ref_distances_eq _ _ hA hP]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
